-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2x4096x4096 : Shape := ⟨3, ![2, 4096, 4096]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x64 .f32) (main_arg1 : FVec F S2x4096x4096 .f32) (main_arg2 : FVec F S64x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x64 : Shape := ⟨2, ![4096, 64]⟩
abbrev S2x4096x4096 : Shape := ⟨3, ![2, 4096, 4096]⟩
abbrev S64x64 : Shape := ⟨2, ![64, 64]⟩
abbrev S64x4096 : Shape := ⟨2, ![64, 4096]⟩
abbrev S2x256x4096 : Shape := ⟨3, ![2, 256, 4096]⟩
abbrev S64x256 : Shape := ⟨2, ![64, 256]⟩
abbrev S1x256x4096 : Shape := ⟨3, ![1, 256, 4096]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S64x64, .f32⟩
  | .hbm, ⟨3, _⟩ => ⟨S64x4096, .f32⟩
  | .hbm, ⟨4, _⟩ => ⟨S4096x64, .f32⟩
  | .local _ .vmem, ⟨0, _⟩ => ⟨S4096x64, .f32⟩
  | .local _ .vmem, ⟨1, _⟩ => ⟨S2x256x4096, .f32⟩
  | .local _ .vmem, ⟨2, _⟩ => ⟨S2x256x4096, .f32⟩
  | .local _ .vmem, ⟨3, _⟩ => ⟨S64x64, .f32⟩
  | .local _ .vmem, ⟨4, _⟩ => ⟨S64x256, .f32⟩
  | .local _ .vmem, ⟨5, _⟩ => ⟨S64x256, .f32⟩
  | .local _ .vmem, ⟨6, _⟩ => ⟨S64x4096, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x4096_S4096x64_1_0 : S64x4096.Transposes [1, 0] S4096x64
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  inb_S2x256x4096_S1x256x4096_1_0_0 : ∀ a, (![1, 0, 0] : Fin 3 → Nat) a + S1x256x4096.size a ≤ S2x256x4096.size a
  inb_S64x256_S64x256_0_0 : ∀ a, (![0, 0] : Fin 2 → Nat) a + S64x256.size a ≤ S64x256.size a
  h_S64x256 : 0 < S64x256.numel
  dot_S64x64_S4096x64_S64x4096_0_1_1_0_n_n_wf : DotDims.WF S64x64 S4096x64 S64x4096 [0] [1] [1] [0] [] []
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x4096.size a ≤ S2x4096x4096.size a
  hwx0_1 : ∀ i : grid0.Coords, EltTy.bits .f32 = 32 ∨ (Rect.block (s := S2x4096x4096) S2x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x4096.size a
  hwx0_3 : ∀ i : grid0.Coords, EltTy.bits .f32 = 32 ∨ (Rect.block (s := S64x4096) S64x256.size (cc0_transform_3 i) (hinb0_3 i)).WholeWords (EltTy.packing .f32)

variable [Facts₀]

def dot_S64x64_S4096x64_S64x4096_0_1_1_0_n_n : DotDims S64x64 S4096x64 S64x4096 where
  lhsContracting := [0]
  rhsContracting := [1]
  lhsNonContracting := [1]
  rhsNonContracting := [0]
  lhsBatch := []
  rhsBatch := []
  wf := dot_S64x64_S4096x64_S64x4096_0_1_1_0_n_n_wf
def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S2x4096x4096 : Shape := ⟨3, ![2, 4096, 4096]⟩
abbrev S64x64 : Shape := ⟨2, ![64, 64]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S64x64, .f32⟩
  | .hbm, ⟨3, _⟩ => ⟨S4096x64, .f32⟩
  | .hbm, ⟨4, _⟩ => ⟨S_, .f32⟩
  | .hbm, ⟨5, _⟩ => ⟨S4096x4096, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  reducesTo_S2x4096x4096_S4096x4096_d0 : S2x4096x4096.ReducesTo [0] S4096x4096
  h_S_ : 0 < S_.numel
  bcast_S_S4096x64 : S_.BroadcastsInDim S4096x64 (![] : Fin 0 → Fin S4096x64.rank)
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KernelPieces.lean ====
/-
  What each control case of the kernel body leaves behind, as values (at any float instance).

  The body has two cases. At the grid's first point it loads the weights and the node features, stores the
  transposed hidden-feature matrix into the scratch buffer it keeps for the whole grid, reads that matrix
  back, and stores the output block; at every later point it stores only the output block, computed from
  the scratch as the previous point left it. Each buffer ends with one store through the rectangle that is
  the whole buffer, so what it holds is that store's payload; a load through the whole buffer reads its
  contents, and the two loads of the adjacency block read its two 256-row slices.
-/
import proofs.«101197_g19722489823522_cont_8to1_1409_28_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

/-- The zero offsets of a rank-2 rectangle, however spelt. -/
theorem hz2 : (![0, 0] : Fin 2 → Nat) = fun _ => 0 := funext fun a => by fin_cases a <;> rfl

/-- FIRST POINT, the scratch: the transposed hidden features of the loaded weights `x2` and node features `x0`. -/
theorem sout_A (c : Dev nD) (i : grid0.Coords) (a1 : Memref sig .tc .vmem S4096x64 .f32) (h1 : a1.IsWhole) (a2 : Memref sig .tc .vmem S2x256x4096 .f32) (h2 : a2.IsWhole) (a3 : Memref sig .tc .vmem S64x64 .f32) (h3 : a3.IsWhole) (a4 : Memref sig .tc .vmem S64x256 .f32) (h4 : a4.IsWhole) (a5 : Memref sig .tc .vmem S64x4096 .bf16) (h5 : a5.IsWhole) (hc : cond0_0 i)
    (x0 : Vec F S4096x64 .f32) (x1 : Vec F S2x256x4096 .f32) (x2 : Vec F S64x64 .f32) :
    sout0_A_0 c i a1 h1 a2 h2 a3 h3 a4 h4 a5 h5 hc x0 x1 x2 = k0_pay1 x2 x0 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz2]
  simp only [View.readAt_eq_ld, h1.read_unread, h3.read_unread, View.ld_unit_zero (S := S64x64) hz2, View.ld_unit_zero (S := S4096x64) hz2]

/-- FIRST POINT, the output block: the block's payload of the adjacency block's two slices and of the matrix
    just stored (the read-back of the scratch is the stored payload). -/
theorem out_A (c : Dev nD) (i : grid0.Coords) (a1 : Memref sig .tc .vmem S4096x64 .f32) (h1 : a1.IsWhole) (a2 : Memref sig .tc .vmem S2x256x4096 .f32) (h2 : a2.IsWhole) (a3 : Memref sig .tc .vmem S64x64 .f32) (h3 : a3.IsWhole) (a4 : Memref sig .tc .vmem S64x256 .f32) (h4 : a4.IsWhole) (a5 : Memref sig .tc .vmem S64x4096 .bf16) (h5 : a5.IsWhole) (hc : cond0_0 i)
    (x0 : Vec F S4096x64 .f32) (x1 : Vec F S2x256x4096 .f32) (x2 : Vec F S64x64 .f32) :
    out0_A_3 c i a1 h1 a2 h2 a3 h3 a4 h4 a5 h5 hc x0 x1 x2
      = k0_pay2 (View.ld x1 (Rect.unit (s := S2x256x4096) ![0, 0, 0] S1x256x4096.size inb_S2x256x4096_S1x256x4096_0_0_0)) (View.ld x1 (Rect.unit (s := S2x256x4096) ![1, 0, 0] S1x256x4096.size inb_S2x256x4096_S1x256x4096_1_0_0)) (k0_pay1 x2 x0) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2, View.readCov_unit_zero (S := S64x4096) _ hz2]
  simp only [View.readAt_eq_ld, h1.read_unread, h2.read_unread, h3.read_unread, View.ld_unit_zero (S := S64x64) hz2, View.ld_unit_zero (S := S4096x64) hz2]

/-- LATER POINTS, the output block: the same payload over the scratch's contents `xs` as the point before left them. -/
theorem out_B (c : Dev nD) (i : grid0.Coords) (a1 : Memref sig .tc .vmem S4096x64 .f32) (h1 : a1.IsWhole) (a2 : Memref sig .tc .vmem S2x256x4096 .f32) (h2 : a2.IsWhole) (a3 : Memref sig .tc .vmem S64x64 .f32) (h3 : a3.IsWhole) (a4 : Memref sig .tc .vmem S64x256 .f32) (h4 : a4.IsWhole) (a5 : Memref sig .tc .vmem S64x4096 .bf16) (h5 : a5.IsWhole) (hc : ¬cond0_0 i)
    (x0 : Vec F S4096x64 .f32) (x1 : Vec F S2x256x4096 .f32) (x2 : Vec F S64x64 .f32) (xs : Vec F S64x4096 .bf16) :
    out0_B_3 c i a1 h1 a2 h2 a3 h3 a4 h4 a5 h5 hc x0 x1 x2 xs
      = k0_pay2 (View.ld x1 (Rect.unit (s := S2x256x4096) ![0, 0, 0] S1x256x4096.size inb_S2x256x4096_S1x256x4096_0_0_0)) (View.ld x1 (Rect.unit (s := S2x256x4096) ![1, 0, 0] S1x256x4096.size inb_S2x256x4096_S1x256x4096_1_0_0)) xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz2]
  simp only [View.readAt_eq_ld, h2.read_unread, h5.read_unread, View.ld_unit_zero (S := S64x4096) hz2]

end Cert.KernelIdeal.Pieces

end
-- ==== Proof.KernelPayload.lean ====
/-
  The kernel body's arithmetic, read at an index on the extended reals.

  The body has two pure values. The first, formed at the grid's first point only, is the hidden-feature
  matrix stored TRANSPOSED: a contraction of the weights W (on their input-feature axis) with the node
  features x (on their feature axis), so its entry at (feature d, node m) is ∑ j, W[j, d] * x[m, j]; the
  narrowing of its format is the identity on the extended reals. The second, formed at every point,
  adds the two 256-row slices of the streamed adjacency block, contracts the stored matrix with the sum
  on the node axis — entry (d, r) is ∑ k, H[d, k] * (A₀[r, k] + A₁[r, k]) — and takes the maximum with zero.
  Each contraction into a zero accumulator is a plain finite sum; the sum over the contraction's index
  type is re-indexed over Fin 64, Fin 4096 through the operand index maps, axis by axis.
-/
import proofs.«101197_g19722489823522_cont_8to1_1409_28_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload

open Idealize.ShloMosaic Idealize.ShloMosaic.ValueIdx
open Cert.KernelIdeal Cert.KernelIdeal.Gen

/-! ## The transposed hidden features: W contracted on axis 0 with x contracted on axis 1

The operand indices at output index `i` and contraction index `q`, axis by axis: the contracted axis of each operand
carries `q`, its free axis the output's coordinate — the weights' free axis the output's feature, the node features'
free axis the output's node. -/

theorem lhsH_0 (i : S64x4096.Idx) (q : dot_S64x64_S4096x64_S64x4096_0_1_1_0_n_n.contr.Idx) :
    (dot_S64x64_S4096x64_S64x4096_0_1_1_0_n_n.lhsIdx i q 0).val = (q ⟨0, by decide⟩).val :=
  dot_S64x64_S4096x64_S64x4096_0_1_1_0_n_n.lhsIdx_val_of_single rfl i q
theorem lhsH_1 (i : S64x4096.Idx) (q : dot_S64x64_S4096x64_S64x4096_0_1_1_0_n_n.contr.Idx) :
    (dot_S64x64_S4096x64_S64x4096_0_1_1_0_n_n.lhsIdx i q 1).val = (i 0).val := by
  unfold DotDims.lhsIdx
  rw [dif_neg (show ¬(1 : Fin S64x64.rank) ∈ dot_S64x64_S4096x64_S64x4096_0_1_1_0_n_n.lhsBatch by decide), dif_pos (show (1 : Fin S64x64.rank) ∈ dot_S64x64_S4096x64_S64x4096_0_1_1_0_n_n.lhsNonContracting by decide)]
  rfl
theorem rhsH_1 (i : S64x4096.Idx) (q : dot_S64x64_S4096x64_S64x4096_0_1_1_0_n_n.contr.Idx) :
    (dot_S64x64_S4096x64_S64x4096_0_1_1_0_n_n.rhsIdx i q 1).val = (q ⟨0, by decide⟩).val :=
  dot_S64x64_S4096x64_S64x4096_0_1_1_0_n_n.rhsIdx_val_of_single rfl i q
theorem rhsH_0 (i : S64x4096.Idx) (q : dot_S64x64_S4096x64_S64x4096_0_1_1_0_n_n.contr.Idx) :
    (dot_S64x64_S4096x64_S64x4096_0_1_1_0_n_n.rhsIdx i q 0).val = (i 1).val := by
  unfold DotDims.rhsIdx
  rw [dif_neg (show ¬(0 : Fin S4096x64.rank) ∈ dot_S64x64_S4096x64_S64x4096_0_1_1_0_n_n.rhsBatch by decide), dif_pos (show (0 : Fin S4096x64.rank) ∈ dot_S64x64_S4096x64_S64x4096_0_1_1_0_n_n.rhsNonContracting by decide)]
  rfl

/-- Entry (d, m) of the stored matrix: ∑ j, W[j, d] * x[m, j]. -/
theorem pay1_apply (W : Vec Ideal S64x64 .f32) (x : Vec Ideal S4096x64 .f32) (d : Fin 64) (mm : Fin 4096) :
    k0_pay1 (F := Ideal) W x (ix2 d mm) = ∑ j : Fin 64, W (ix2 j d) * x (ix2 mm j) := by
  unfold k0_pay1
  rw [shapeCast_self]
  show FloatOps.matmul (F := Ideal) (φ₁ := .f32) (φ₂ := .f32) dot_S64x64_S4096x64_S64x4096_0_1_1_0_n_n none W x (constant (F := Ideal) S64x4096 .f32 0x00000000#32) (ix2 d mm) = _
  rw [Ideal.matmul_constant_zero_apply, ← Equiv.sum_comp (contrEquiv1 dot_S64x64_S4096x64_S64x4096_0_1_1_0_n_n 64 rfl rfl).symm]
  refine Finset.sum_congr rfl fun k _ => ?_
  have hk := contrEquiv1_symm_val dot_S64x64_S4096x64_S64x4096_0_1_1_0_n_n 64 rfl rfl k
  have el : dot_S64x64_S4096x64_S64x4096_0_1_1_0_n_n.lhsIdx (ix2 d mm) ((contrEquiv1 dot_S64x64_S4096x64_S64x4096_0_1_1_0_n_n 64 rfl rfl).symm k) = ix2 k d := funext fun a => Fin.ext (by
    match a with
    | ⟨0, _⟩ => exact (lhsH_0 _ _).trans hk
    | ⟨1, _⟩ => exact lhsH_1 _ _)
  have er : dot_S64x64_S4096x64_S64x4096_0_1_1_0_n_n.rhsIdx (ix2 d mm) ((contrEquiv1 dot_S64x64_S4096x64_S64x4096_0_1_1_0_n_n 64 rfl rfl).symm k) = ix2 mm k := funext fun a => Fin.ext (by
    match a with
    | ⟨0, _⟩ => exact rhsH_0 _ _
    | ⟨1, _⟩ => exact (rhsH_1 _ _).trans hk)
  rw [el, er]

/-! ## A block of the transposed output: both operands contracted on their node axis

Again axis by axis: the stored matrix is read at (the output's feature, `q`), the summed adjacency rows at
(the output's local row, `q`). -/

theorem lhsO_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
theorem lhsO_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
theorem rhsO_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q
theorem rhsO_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl

/-- Entry (d, r) of the block: max (∑ k, H[d, k] * (A₀[0, r, k] + A₁[0, r, k])) 0, the two slices still carrying
    their unit leading axis. -/
theorem pay2_apply (v3 v5 : Vec Ideal S1x256x4096 .f32) (v9 : Vec Ideal S64x4096 .bf16) (d : Fin 64) (r : Fin 256) :
    k0_pay2 (F := Ideal) v3 v5 v9 (ix2 d r)
      = max (∑ k : Fin 4096, v9 (ix2 d k) * (v3 (ix3 0 r k) + v5 (ix3 0 r k))) 0 := by
  unfold k0_pay2
  refine (maximumf_apply (φ := .f32) _ _ _).trans ?_
  refine congrArg₂ max ?_ ?_
  · refine (Ideal.matmul_constant_zero_apply (φ₁ := .bf16) (φ₂ := .bf16) dot_S64x4096_S256x4096_S64x256_1_1_0_0_n_n none v9 _ (ix2 d r)).trans ?_
    rw [← Equiv.sum_comp (contrEquiv1 dot_S64x4096_S256x4096_S64x256_1_1_0_0_n_n 4096 rfl rfl).symm]
    refine Finset.sum_congr rfl fun k _ => ?_
    have hk := contrEquiv1_symm_val dot_S64x4096_S256x4096_S64x256_1_1_0_0_n_n 4096 rfl rfl k
    have el : dot_S64x4096_S256x4096_S64x256_1_1_0_0_n_n.lhsIdx (ix2 d r) ((contrEquiv1 dot_S64x4096_S256x4096_S64x256_1_1_0_0_n_n 4096 rfl rfl).symm k) = ix2 d k := funext fun a => Fin.ext (by
      match a with
      | ⟨0, _⟩ => exact lhsO_0 _ _
      | ⟨1, _⟩ => exact (lhsO_1 _ _).trans hk)
    have er : dot_S64x4096_S256x4096_S64x256_1_1_0_0_n_n.rhsIdx (ix2 d r) ((contrEquiv1 dot_S64x4096_S256x4096_S64x256_1_1_0_0_n_n 4096 rfl rfl).symm k) = ix2 r k := funext fun a => Fin.ext (by
      match a with
      | ⟨0, _⟩ => exact rhsO_0 _ _
      | ⟨1, _⟩ => exact (rhsO_1 _ _).trans hk)
    rw [el, er]
    refine congrArg (_ * ·) ?_
    show shapeCast S256x4096 v3 shapeCasts_S1x256x4096_S256x4096 (ix2 r k) + shapeCast S256x4096 v5 shapeCasts_S1x256x4096_S256x4096 (ix2 r k) = _
    rw [shapeCast_1ab_ab_apply, shapeCast_1ab_ab_apply]
  · show Ideal.ofBits .f32 0x00000000#32 = 0
    exact Ideal.ofBits_zero_f32

/-! ## The two together, over the whole adjacency block -/

/-- Slice `s` of a [2, 256, 4096] block read through its unit-stride rectangle at offset (s, 0, 0) is the block at
    (s, r, k). -/
theorem slice0_apply (A : Vec Ideal S2x256x4096 .f32) (r : Fin 256) (k : Fin 4096) :
    View.ld A (Rect.unit (s := S2x256x4096) ![0, 0, 0] S1x256x4096.size inb_S2x256x4096_S1x256x4096_0_0_0) (ix3 (0 : Fin 1) r k) = A (ix3 0 r k) :=
  congrArg A (funext fun a => Fin.ext (by
    match a with
    | ⟨0, _⟩ => rfl
    | ⟨1, _⟩ => show 0 + 1 * r.val = r.val; omega
    | ⟨2, _⟩ => show 0 + 1 * k.val = k.val; omega))

theorem slice1_apply (A : Vec Ideal S2x256x4096 .f32) (r : Fin 256) (k : Fin 4096) :
    View.ld A (Rect.unit (s := S2x256x4096) ![1, 0, 0] S1x256x4096.size inb_S2x256x4096_S1x256x4096_1_0_0) (ix3 (0 : Fin 1) r k) = A (ix3 1 r k) :=
  congrArg A (funext fun a => Fin.ext (by
    match a with
    | ⟨0, _⟩ => rfl
    | ⟨1, _⟩ => show 0 + 1 * r.val = r.val; omega
    | ⟨2, _⟩ => show 0 + 1 * k.val = k.val; omega))

/-- The block a point stores, from the whole node features `X`, the whole weights `W` and the point's adjacency
    block `A`: at (feature d, local row r) it is max (∑ k, (∑ j, W[j, d] * X[k, j]) * (A[0, r, k] + A[1, r, k])) 0. -/
theorem block_apply (X : Vec Ideal S4096x64 .f32) (A : Vec Ideal S2x256x4096 .f32) (W : Vec Ideal S64x64 .f32)
    (d : Fin 64) (r : Fin 256) :
    k0_pay2 (F := Ideal) (View.ld A (Rect.unit (s := S2x256x4096) ![0, 0, 0] S1x256x4096.size inb_S2x256x4096_S1x256x4096_0_0_0)) (View.ld A (Rect.unit (s := S2x256x4096) ![1, 0, 0] S1x256x4096.size inb_S2x256x4096_S1x256x4096_1_0_0)) (k0_pay1 (F := Ideal) W X) (ix2 d r)
      = max (∑ k : Fin 4096, (∑ j : Fin 64, W (ix2 j d) * X (ix2 k j)) * (A (ix3 0 r k) + A (ix3 1 r k))) 0 := by
  refine (pay2_apply _ _ _ d r).trans ?_
  refine congrArg (max · 0) (Finset.sum_congr rfl fun k _ => ?_)
  rw [pay1_apply, slice0_apply, slice1_apply]

end Cert.KernelIdeal.Payload

end
-- ==== Proof.GcnSpec.lean ====
/-
  The graph-convolution layer as one function of its three argument arrays, index by index, on the
  extended reals:

      out[n, d] = max (∑ m, (adj[0, n, m] + adj[1, n, m]) * (∑ j, x[m, j] * W[j, d])) 0 .

  The two adjacency slices are added first, the hidden features h[m, d] = ∑ j, x[m, j] * W[j, d] are
  formed once, one contraction over the 4096 nodes follows, and the rectifier is a maximum with zero.
  A second arrangement of the same number — the hidden features stored transposed, every product with
  its factors exchanged — is equal to it by commutativity of the product alone, so no finiteness of
  the entries is needed.
-/
import Idealize.ShloMosaic.PureOps.Ideal
import Idealize.ShloMosaic.Lib.ValueIdx

noncomputable section

namespace Cert.Gcn

open Idealize.ShloMosaic Idealize.ShloMosaic.ValueIdx

/-- Node features: 4096 nodes, 64 input features. -/
abbrev ShX : Shape := ⟨2, ![4096, 64]⟩
/-- Two dense adjacency matrices over the 4096 nodes. -/
abbrev ShA : Shape := ⟨3, ![2, 4096, 4096]⟩
/-- The weight matrix: 64 input features to 64 output features. -/
abbrev ShW : Shape := ⟨2, ![64, 64]⟩

/-- The layer's output at node `i 0` and output feature `i 1`. -/
def layer (x : ShX.Idx → EReal) (adj : ShA.Idx → EReal) (W : ShW.Idx → EReal) : ShX.Idx → EReal := fun i =>
  max (∑ k : Fin 4096, (adj (ix3 0 (i 0) k) + adj (ix3 1 (i 0) k)) * ∑ j : Fin 64, x (ix2 k j) * W (ix2 j (i 1))) 0

/-- The same number with the hidden features read transposed (feature first, node second) and every
    product's factors exchanged: what a contraction of the transposed hidden features against the summed
    adjacency rows computes at feature `d` and node `n`. Equal to the layer by commutativity of the
    product. -/
theorem layer_transposed (x : ShX.Idx → EReal) (adj : ShA.Idx → EReal) (W : ShW.Idx → EReal) (n : Fin 4096) (d : Fin 64) :
    max (∑ k : Fin 4096, (∑ j : Fin 64, W (ix2 j d) * x (ix2 k j)) * (adj (ix3 0 n k) + adj (ix3 1 n k))) 0
      = layer x adj W (ix2 n d) := by
  unfold layer
  refine congrArg (max · 0) (Finset.sum_congr rfl fun k _ => ?_)
  rw [mul_comm]
  exact congrArg (_ * ·) (Finset.sum_congr rfl fun j _ => mul_comm _ _)

end Cert.Gcn

end
-- ==== Proof.KernelBlocks.lean ====
/-
  The kernel's result array, read off its run on the extended reals.

  The kernel visits sixteen grid points. The first stores the transposed hidden-feature matrix
  H[d, m] = ∑ j, W[j, d] * x[m, j] in a scratch buffer; no later point writes the scratch, so by induction on
  the point it holds H after every point. Point t stores, into its block of the transposed output — all 64
  features by the 256 nodes 256 t … 256 t + 255 —, at (d, r) the number
  max (∑ k, H[d, k] * (adj[0, 256 t + r, k] + adj[1, 256 t + r, k])) 0, which by commutativity of the product
  is the layer's output at node 256 t + r and feature d. The sixteen column blocks tile the [64, 4096] array,
  so after the region it holds the layer's output transposed, and the transpose that follows the region makes
  the result array the layer's output itself.
-/
import proofs.«101197_g19722489823522_cont_8to1_1409_28_alg».proof.Proof.KernelPieces
import proofs.«101197_g19722489823522_cont_8to1_1409_28_alg».proof.Proof.KernelPayload
import proofs.«101197_g19722489823522_cont_8to1_1409_28_alg».proof.Proof.GcnSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

section AnyInstance

variable {F : FTy → Type} [FloatOps F]
variable (m : (ℓ : Loc nD τ sig) → Buf (Elt F) ℓ)

theorem N_pos : 0 < cfg0.N := by rw [show cfg0.N = 16 from N_0]; decide

/-- The grid's first point. -/
abbrev first : Fin cfg0.N := ⟨0, N_pos⟩

/-- The transposed hidden features as the first point stores them in the scratch. -/
def hiddenT (c : Dev nD) : Vec F S64x4096 .bf16 := k0_pay1 (iblk m c 2 first) (iblk m c 0 first)

/-- The first point stores that matrix in the scratch. -/
theorem scratch_first (c : Dev nD) : (outsAt0 m c 0 N_pos).2 = hiddenT m c := by
  have e := outsAt0_A m c first (Nat.zero_mod _)
  rw [show outsAt0 m c 0 N_pos = _ from e]
  dsimp only
  exact Pieces.sout_A (F := F) c (grid0.coords first) (ms0_0 first) (hs0_0 first) (ms0_1 first) (hs0_1 first) (ms0_2 first) (hs0_2 first) (ms0_3 first) (hs0_3 first) scM0_0 (Memref.isWhole_whole _) ((hcond0_0 first).mpr (Nat.zero_mod _)) (iblk m c 0 first) (iblk m c 1 first) (iblk m c 2 first)

/-- A later point leaves the scratch as it found it. -/
theorem scratch_step (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After EVERY point the scratch holds the matrix the first point stored (induction on the point). -/
theorem scratch_eq (c : Dev nD) : ∀ (n : ℕ) (h : n < cfg0.N), (outsAt0 m c n h).2 = hiddenT m c
  | 0, _ => scratch_first m c
  | n + 1, h => by
    have hN : cfg0.N = 16 := N_0
    have hB : ¬(⟨n + 1, h⟩ : Fin cfg0.N).val % 16 = 0 := by dsimp only; omega
    exact (scratch_step m c ⟨n + 1, h⟩ hB).trans (scratch_eq c n (Nat.lt_of_succ_lt h))

/-- So the block point `t` leaves in the output's staging buffer is the block payload of the point's adjacency block
    and of that one matrix. -/
theorem out_eq (c : Dev nD) (t : Fin cfg0.N) :
    (outsAt0 m c t.val t.isLt).1
      = k0_pay2 (View.ld (iblk m c 1 t) (Rect.unit (s := S2x256x4096) ![0, 0, 0] S1x256x4096.size inb_S2x256x4096_S1x256x4096_0_0_0)) (View.ld (iblk m c 1 t) (Rect.unit (s := S2x256x4096) ![1, 0, 0] S1x256x4096.size inb_S2x256x4096_S1x256x4096_1_0_0)) (hiddenT m c) := by
  have hN : cfg0.N = 16 := N_0
  by_cases h0 : t.val % 16 = 0
  · obtain rfl : t = first := Fin.ext (by have := t.isLt; show t.val = 0; omega)
    rw [outsAt0_A m c first h0]
    dsimp only
    exact Pieces.out_A (F := F) c (grid0.coords first) (ms0_0 first) (hs0_0 first) (ms0_1 first) (hs0_1 first) (ms0_2 first) (hs0_2 first) (ms0_3 first) (hs0_3 first) scM0_0 (Memref.isWhole_whole _) ((hcond0_0 first).mpr h0) (iblk m c 0 first) (iblk m c 1 first) (iblk m c 2 first)
  · rw [outsAt0_B m c t h0]
    dsimp only
    rw [scratch_eq m c (t.val - 1)]
    exact Pieces.out_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (hiddenT m c)

end AnyInstance

section AtIdeal

variable (m : (ℓ : Loc nD τ sig) → Buf (Elt Ideal) ℓ)

/-- The printed index maps over the grid: the node features and the weights are one block each, never moving; the
    adjacency block and the output block move with the point along their node axis. -/
theorem idx_facts : ∀ t : Fin cfg0.N, win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The node-features block at any point is the whole array. -/
theorem iblk0_apply (c : Dev nD) (t : Fin cfg0.N) (k : Fin 4096) (j : Fin 64) :
    iblk m c 0 t (ix2 k j) = V m c main_arg0 (ix2 k j) := by
  obtain ⟨e0, e1, -⟩ := idx_facts t
  unfold iblk
  rw [View.read_apply]
  show V m c main_arg0 (((cfg0.win 0).blk t).view.emb (ix2 k j)) = V m c main_arg0 (ix2 k j)
  refine congrArg _ (funext fun a => Fin.ext ?_)
  match a with
  | ⟨0, _⟩ => show win0_0.index t (0 : Fin 2) * 4096 + 1 * k.val = k.val; rw [e0]; omega
  | ⟨1, _⟩ => show win0_0.index t (1 : Fin 2) * 64 + 1 * j.val = j.val; rw [e1]; omega

/-- The weights block at any point is the whole array. -/
theorem iblk2_apply (c : Dev nD) (t : Fin cfg0.N) (j d : Fin 64) :
    iblk m c 2 t (ix2 j d) = V m c main_arg2 (ix2 j d) := by
  obtain ⟨-, -, -, -, -, e0, e1, -⟩ := idx_facts t
  unfold iblk
  rw [View.read_apply]
  show V m c main_arg2 (((cfg0.win 2).blk t).view.emb (ix2 j d)) = V m c main_arg2 (ix2 j d)
  refine congrArg _ (funext fun a => Fin.ext ?_)
  match a with
  | ⟨0, _⟩ => show win0_2.index t (0 : Fin 2) * 64 + 1 * j.val = j.val; rw [e0]; omega
  | ⟨1, _⟩ => show win0_2.index t (1 : Fin 2) * 64 + 1 * d.val = d.val; rw [e1]; omega

/-- Row `r` of point `t`'s adjacency block is row 256 t + r of the adjacency matrices. -/
theorem iblk1_apply (c : Dev nD) (t : Fin cfg0.N) (s : Fin 2) (r : Fin 256) (k : Fin 4096) (n : Fin 4096)
    (hn : n.val = t.val * 256 + r.val) :
    iblk m c 1 t (ix3 s r k) = V m c main_arg1 (ix3 s n k) := by
  obtain ⟨-, -, e0, e1, e2, -⟩ := idx_facts t
  unfold iblk
  rw [View.read_apply]
  show V m c main_arg1 (((cfg0.win 1).blk t).view.emb (ix3 s r k)) = V m c main_arg1 (ix3 s n k)
  refine congrArg _ (funext fun a => Fin.ext ?_)
  match a with
  | ⟨0, _⟩ => show win0_1.index t (0 : Fin 3) * 2 + 1 * s.val = s.val; rw [e0]; omega
  | ⟨1, _⟩ => show win0_1.index t (1 : Fin 3) * 256 + 1 * r.val = n.val; rw [e1]; omega
  | ⟨2, _⟩ => show win0_1.index t (2 : Fin 3) * 4096 + 1 * k.val = k.val; rw [e2]; omega

/-- The transposed output array: its entry at (feature d, node n) is the layer's output at node n and feature d,
    over the argument arrays as the region finds them. -/
def outT (c : Dev nD) : Buf (Elt Ideal) ((c : Thread nD τ).loc main_call0_v0) := fun i =>
  Cert.Gcn.layer (V m c main_arg0) (V m c main_arg1) (V m c main_arg2) (ix2 (i 1) (i 0))

/-- WHAT POINT `t` WRITES BACK is block `t` of the transposed output array: at (feature d, local row r) the block
    payload over the whole node features, the whole weights and rows 256 t … 256 t + 255 of the adjacency matrices is
    the layer at node 256 t + r — the payload's products have their factors in the other order, which the product's
    commutativity absorbs. -/
theorem flushed_eq (c : Dev nD) (t : Fin cfg0.N) :
    (dats m 0 c).flushed 3 t = ((cfg0.win 3).blk t).view.read (Elt Ideal) (outT m c) := by
  have hN : cfg0.N = 16 := N_0
  obtain ⟨-, -, -, -, -, -, -, e30, e31⟩ := idx_facts t
  show (cfg0.win 3).cut (grid0.coords t) ((dats m 0 c).after 3 t) = _
  rw [after0_3, out_eq]
  funext y
  show k0_pay2 (F := Ideal) (View.ld (iblk m c 1 t) (Rect.unit (s := S2x256x4096) ![0, 0, 0] S1x256x4096.size inb_S2x256x4096_S1x256x4096_0_0_0)) (View.ld (iblk m c 1 t) (Rect.unit (s := S2x256x4096) ![1, 0, 0] S1x256x4096.size inb_S2x256x4096_S1x256x4096_1_0_0)) (hiddenT m c) y
    = outT m c (((cfg0.win 3).blk t).view.emb y)
  obtain ⟨d, r, rfl⟩ : ∃ (d : Fin 64) (r : Fin 256), y = ix2 d r := ⟨y 0, y 1, eq_ix2 y⟩
  unfold hiddenT
  refine (Payload.block_apply (iblk m c 0 first) (iblk m c 1 t) (iblk m c 2 first) d r).trans ?_
  have hr : r.val < 256 := r.isLt
  have ht : t.val < 16 := lt_of_lt_of_eq t.isLt hN
  obtain ⟨n, hn⟩ : ∃ n : Fin 4096, n.val = t.val * 256 + r.val := ⟨⟨t.val * 256 + r.val, by omega⟩, rfl⟩
  simp only [iblk0_apply, iblk2_apply, iblk1_apply m c t _ r _ n hn]
  rw [Cert.Gcn.layer_transposed]
  show Cert.Gcn.layer _ _ _ (ix2 n d) = Cert.Gcn.layer _ _ _ (ix2 ((((cfg0.win 3).blk t).view.emb (ix2 d r)) 1) ((((cfg0.win 3).blk t).view.emb (ix2 d r)) 0))
  refine congrArg _ (funext fun a => Fin.ext ?_)
  match a with
  | ⟨0, _⟩ => show n.val = win0_3.index t (1 : Fin 2) * 256 + 1 * r.val; rw [e31, hn]; omega
  | ⟨1, _⟩ => show d.val = win0_3.index t (0 : Fin 2) * 64 + 1 * d.val; rw [e30]; omega

/-- An index of the transposed output array is in point `t`'s block iff each coordinate is in the block's range. -/
theorem mem_blk (t : Fin cfg0.N) (i : S64x4096.Idx) :
    i ∈ ((cfg0.win 3).blk t).view.set ↔ ∀ a : Fin 2, win0_3.index t a * S64x256.size a ≤ (i a).val ∧ (i a).val < win0_3.index t a * S64x256.size a + S64x256.size a := by
  show i ∈ ((View.whole main_call0_v0).slice (win0_3.rect t)).set ↔ _
  rw [View.set_slice_whole, Rect.mem_set_unit]
  exact Iff.rfl

/-- Every entry (d, n) is written back by the point n / 256: the sixteen column blocks tile the array. -/
theorem cover (i : S64x4096.Idx) :
    ∃ t : Fin cfg0.N, (cfg0.win 3).flush t = true ∧ i ∈ ((cfg0.win 3).blk t).view.set := by
  have hN : cfg0.N = 16 := N_0
  have h0 : (i 0).val < 64 := (i 0).isLt
  have h1 : (i 1).val < 4096 := (i 1).isLt
  obtain ⟨t, ht⟩ : ∃ t : Fin cfg0.N, t.val = (i 1).val / 256 := ⟨⟨(i 1).val / 256, by omega⟩, rfl⟩
  obtain ⟨-, -, -, -, -, -, -, e30, e31⟩ := idx_facts t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    rw [e30]; omega
  | ⟨1, _⟩ =>
    show win0_3.index t (1 : Fin 2) * 256 ≤ (i 1).val ∧ (i 1).val < win0_3.index t (1 : Fin 2) * 256 + 256
    rw [e31, ht]; omega

/-- So after the region the transposed output array holds `outT`. -/
theorem final (c : Dev nD) : (dats m 0 c).arrAt 3 cfg0.N = outT m c :=
  (dats m 0 c).arrAt_eq_of_cover 3 (outT m c) (fun t _ => flushed_eq m c t) cover

/-- THE RESULT: the transpose after the region turns the transposed output array into the layer's output — the result
    array at (node n, feature d) reads the transposed array at (d, n). -/
theorem result_eq (c : Dev nD) :
    Pipeline.afterTail₀ cfgs (dats m) 0 (V0 m) [hostOps1] c main_v0
      = Cert.Gcn.layer (V m c main_arg0) (V m c main_arg1) (V m c main_arg2) := by
  unfold Pipeline.afterTail₀
  show StableHlo.after hostOps1 _ (Proc.devRef .tc main_v0) = _
  after_results
  show transpose S4096x64 [1, 0] (Pipeline.withArrays spec0 c (V0 m c) (fun w => (dats m 0 c).arrAt w cfg0.N)
    (Proc.devRef .tc (Pipeline.arrRef spec0 3))) transposes_S64x4096_S4096x64_1_0 = _
  have e := (Pipeline.withArrays_arr spec0 launch0.win.arr_inj c (V0 m c) (fun w => (dats m 0 c).arrAt w cfg0.N) 3).trans (final m c)
  rw [e]
  funext i
  obtain ⟨n, d, rfl⟩ : ∃ (n : Fin 4096) (d : Fin 64), i = ix2 n d := ⟨i 0, i 1, eq_ix2 i⟩
  rw [transpose_ix2_apply]
  rfl

/-- THE KERNEL'S RUN, READ: every weakly fair execution terminates with the result array at the layer's output of the
    argument arrays, and the three argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
        = Cert.Gcn.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end AtIdeal

end Cert.KernelIdeal.Blocks

end
-- ==== Proof.ReferenceValue.lean ====
/-
  The reference's result is the layer.

  The reference forms the hidden features h = x · W, adds the two adjacency matrices (a sum over the leading
  axis from the initial value zero), contracts the sum with h over the nodes, and takes the maximum with a
  zero array. Read one operation at a time at an index this is, term for term, the layer's defining
  expression: the initial zero is absorbed by 0 + s = s, the sum over the two matrices is the sum of the two
  entries, and the operand indices of the two contractions are (n, k), (k, d) and (k, j), (j, d).
-/
import proofs.«101197_g19722489823522_cont_8to1_1409_28_alg».proof.Proof.Gen.ReferenceIdeal.Read
import proofs.«101197_g19722489823522_cont_8to1_1409_28_alg».proof.Proof.GcnSpec

noncomputable section

namespace Cert.ReferenceIdeal.RefValue

open Idealize.ShloMosaic Idealize.ShloMosaic.ValueIdx
open Cert.ReferenceIdeal Cert.ReferenceIdeal.Read

/-- The last stage of the reference, as a function of the three arguments, is the layer. -/
theorem ref_eq (x0 : (⟨S4096x64, .f32⟩ : BufTy).Contents (Elt Ideal)) (x1 : (⟨S2x4096x4096, .f32⟩ : BufTy).Contents (Elt Ideal)) (x2 : (⟨S64x64, .f32⟩ : BufTy).Contents (Elt Ideal)) :
    val_main_v3 (F := Ideal) x0 x1 x2 = Cert.Gcn.layer x0 x1 x2 := by
  funext i
  rw [val_main_v3_apply, val_main_v2_apply]
  simp only [val_main_v1_apply, val_main_v0_apply, val_main_call0_v0_apply, val_main_call0_cst_apply, val_main_cst_apply]
  simp only [Ideal.maximumf_def, Ideal.ofBits_def, Ideal.ofBits_zero_f32, zero_add, Fin.sum_univ_two]
  unfold Cert.Gcn.layer
  refine congrArg (max · 0) (Finset.sum_congr rfl fun k _ => ?_)
  have e0 : idx_main_v1 (lidx_main_v2 i k) 0 = ix3 0 (i 0) k := funext fun a => Fin.ext (by
    match a with | ⟨0, _⟩ => rfl | ⟨1, _⟩ => rfl | ⟨2, _⟩ => rfl)
  have e1 : idx_main_v1 (lidx_main_v2 i k) 1 = ix3 1 (i 0) k := funext fun a => Fin.ext (by
    match a with | ⟨0, _⟩ => rfl | ⟨1, _⟩ => rfl | ⟨2, _⟩ => rfl)
  have el : ∀ j : Fin 64, lidx_main_v0 (ridx_main_v2 i k) j = ix2 k j := fun j => funext fun a => Fin.ext (by
    match a with | ⟨0, _⟩ => rfl | ⟨1, _⟩ => rfl)
  have er : ∀ j : Fin 64, ridx_main_v0 (ridx_main_v2 i k) j = ix2 j (i 1) := fun j => funext fun a => Fin.ext (by
    match a with | ⟨0, _⟩ => rfl | ⟨1, _⟩ => rfl)
  simp only [e0, e1, el, er]
  rfl

end Cert.ReferenceIdeal.RefValue

end
-- ==== Proof.lean ====
/-
  A graph-convolution layer on 4096 nodes: out = relu (∑ₖ adjₖ · (x · W)), two dense adjacency matrices adjₖ,
  node features x : [4096, 64], weights W : [64, 64].

  Both programs compute, at node n and output feature d,

      max (∑ m, (adj[0, n, m] + adj[1, n, m]) * (∑ j, x[m, j] * W[j, d])) 0

  on the extended reals. The reference adds the two adjacency matrices, forms h = x · W, contracts the sum with h
  and takes the maximum with zero: that is the expression above read operation by operation. The kernel keeps
  hᵀ[d, m] = ∑ j, W[j, d] * x[m, j] in a scratch buffer from its first grid point on, and at grid point t writes
  the block (all features) × (nodes 256 t … 256 t + 255) of the TRANSPOSED output,
  max (∑ m, hᵀ[d, m] * (adj[0, n, m] + adj[1, n, m])) 0; a transpose after the region gives the result. The two
  expressions differ only in the order of the factors of each product, so they are equal by commutativity of
  the product; no distributive law is used, and the finiteness of the inputs is not needed for the values.
  Changes of float format are the identity on the extended reals, and each contraction into a zero
  accumulator is a plain finite sum.

  The three frames: the kernel's two are the frame theorems of its generated modules; the reference's is its
  run with the result dropped. The idealization rewrote no operation, so there is nothing to preserve.
-/
import proofs.«101197_g19722489823522_cont_8to1_1409_28_alg».proof.Defs
import proofs.«101197_g19722489823522_cont_8to1_1409_28_alg».proof.Proof.Gen.Kernel
import proofs.«101197_g19722489823522_cont_8to1_1409_28_alg».proof.Proof.Gen.Kernel.Frame
import proofs.«101197_g19722489823522_cont_8to1_1409_28_alg».proof.Proof.Gen.KernelIdeal
import proofs.«101197_g19722489823522_cont_8to1_1409_28_alg».proof.Proof.Gen.KernelIdeal.Frame
import proofs.«101197_g19722489823522_cont_8to1_1409_28_alg».proof.Proof.Gen.ReferenceIdeal
import proofs.«101197_g19722489823522_cont_8to1_1409_28_alg».proof.Proof.Gen.Pre_finite_inputs
import proofs.«101197_g19722489823522_cont_8to1_1409_28_alg».proof.Proof.Gen.ReferenceIdeal.Run
import proofs.«101197_g19722489823522_cont_8to1_1409_28_alg».proof.Proof.Gen.ReferenceIdeal.Read
import proofs.«101197_g19722489823522_cont_8to1_1409_28_alg».proof.Proof.KernelBlocks
import proofs.«101197_g19722489823522_cont_8to1_1409_28_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the layer's output of those arguments
    in their result arrays: the kernel's by its run read block by block, the reference's by its last stage. -/
theorem algebraic : Cert.algebraic_KernelIdeal_ReferenceIdeal := by
  intro m ρ m' ρ' _ hagree
  refine ⟨fun c => Cert.Gcn.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
